-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S2048x256 : Shape := ⟨2, ![2048, 256]⟩
abbrev S1x2048 : Shape := ⟨2, ![1, 2048]⟩
abbrev S2048x2048 : Shape := ⟨2, ![2048, 2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S1x2048, .f32⟩
  | .local _ .vmem, ⟨6, _⟩ => ⟨S2048x2048, .f32⟩
  | .local _ .vmem, ⟨7, _⟩ => ⟨S2048x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S2048x2048_S2048x2048_0_0 : ∀ a, (![0, 0] : Fin 2 → Nat) a + S2048x2048.size a ≤ S2048x2048.size a
  h_S2048x2048 : 0 < S2048x2048.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  dot_S2048x256_S2048x256_S2048x2048_1_1_0_0_n_n_wf : DotDims.WF S2048x256 S2048x256 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x4096.size a
  hwx0_0 : ∀ i : grid0.Coords, EltTy.bits .f32 = 32 ∨ (Rect.block (s := S4096x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x4096.size a
  hwx0_1 : ∀ i : grid0.Coords, EltTy.bits .f32 = 32 ∨ (Rect.block (s := S4096x4096) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S4096x4096.size a
  hwx0_3 : ∀ i : grid0.Coords, EltTy.bits .f32 = 32 ∨ (Rect.block (s := S4096x4096) S2048x2048.size (cc0_transform_3 i) (hinb0_3 i)).WholeWords (EltTy.packing .f32)

variable [Facts₀]

def dot_S2048x256_S2048x256_S2048x2048_1_1_0_0_n_n : DotDims S2048x256 S2048x256 S2048x2048 where
  lhsContracting := [1]
  rhsContracting := [1]
  lhsNonContracting := [0]
  rhsNonContracting := [0]
  lhsBatch := []
  rhsBatch := []
  wf := dot_S2048x256_S2048x256_S2048x2048_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.LibBlocks.lean ====
/-
  A sum over rows grouped into equal consecutive blocks: summing each block and then the block sums is the sum
  over all rows, in any commutative monoid (no finiteness is involved: the regrouping of a finite sum).
-/
import Mathlib.Algebra.BigOperators.Fin
import Mathlib.Logic.Equiv.Fin.Basic
import Mathlib.Tactic

namespace Cert.LibBlocks

/-- Row `q` of block `t`, when `B` blocks of `T` rows make up `R` rows. -/
def blockRow {B T R : ℕ} (h : B * T = R) (t : Fin B) (q : Fin T) : Fin R :=
  ⟨t.val * T + q.val, by
    have ht := t.isLt
    have hq := q.isLt
    calc t.val * T + q.val < t.val * T + T := by omega
      _ = (t.val + 1) * T := by ring
      _ ≤ B * T := Nat.mul_le_mul_right T ht
      _ = R := h⟩

theorem blockRow_val {B T R : ℕ} (h : B * T = R) (t : Fin B) (q : Fin T) : (blockRow h t q).val = t.val * T + q.val := rfl

/-- The block sums add up to the whole sum. -/
theorem sum_blocks {M : Type*} [AddCommMonoid M] {B T R : ℕ} (h : B * T = R) (f : Fin R → M) :
    ∑ t : Fin B, ∑ q : Fin T, f (blockRow h t q) = ∑ r : Fin R, f r := by
  subst h
  rw [← Equiv.sum_comp finProdFinEquiv f, Fintype.sum_prod_type]
  refine Finset.sum_congr rfl fun t _ => Finset.sum_congr rfl fun q _ => ?_
  congr 1
  apply Fin.ext
  simp only [blockRow_val, finProdFinEquiv_apply_val]
  ring

end Cert.LibBlocks
-- ==== Proof.Spec.lean ====
/-
  The linear layer as one function of the three argument arrays: entry (r, o) of the result is
  Σ_k x (r, k) · W (o, k) + b o, the contraction running over all 4096 input features, on the extended reals.
  Beside it, the whole arrays addressed by natural-number coordinates (so that "row 2048·u + p of the array" is a
  statement about numbers), and the one law the certificate needs: the contraction cut into 16 consecutive
  chunks of 256 features, summed chunk by chunk, is the whole contraction. The law is a regrouping of a finite
  sum in a commutative monoid, so no finiteness of the data enters.
-/
import Idealize.ShloMosaic.PureOps.Ideal
import Idealize.ShloMosaic.Lib.ValueIdx
import proofs.«120342_j21251498180722_2_alg».proof.Proof.LibBlocks

noncomputable section

namespace Cert.Linear

open Idealize.ShloMosaic Idealize.ShloMosaic.ValueIdx
open scoped BigOperators

/-- A [4096, 4096] array of extended reals. -/
abbrev Mat := (⟨2, ![4096, 4096]⟩ : Shape).Idx → EReal
/-- A [4096] array of extended reals. -/
abbrev Row := (⟨1, ![4096]⟩ : Shape).Idx → EReal

/-- The linear layer: entry (r, o) is the dot product of row r of x with row o of W, plus b o. -/
def linear (x W : Mat) (b : Row) : Mat :=
  fun i => (∑ k : Fin 4096, x (ix2 (i 0) k) * W (ix2 (i 1) k)) + b (ix1 (i 1))

/-- Entry (r, k) of a [4096, 4096] array, the coordinates given as natural numbers (0 outside the array, which
    is never read). -/
def at2 (x : Mat) (r k : ℕ) : EReal := if h : r < 4096 ∧ k < 4096 then x (ix2 ⟨r, h.1⟩ ⟨k, h.2⟩) else 0

/-- Entry o of a [4096] array, the coordinate given as a natural number. -/
def at1 (b : Row) (o : ℕ) : EReal := if h : o < 4096 then b (ix1 ⟨o, h⟩) else 0

theorem at2_eq (x : Mat) (r k : ℕ) (i : (⟨2, ![4096, 4096]⟩ : Shape).Idx) (h0 : (i 0).val = r) (h1 : (i 1).val = k) :
    at2 x r k = x i := by
  have hr : r < 4096 := h0 ▸ (i 0).isLt
  have hk : k < 4096 := h1 ▸ (i 1).isLt
  unfold at2
  rw [dif_pos ⟨hr, hk⟩]
  refine congrArg x (funext fun a => Fin.ext ?_)
  match a with
  | ⟨0, _⟩ => exact h0.symm
  | ⟨1, _⟩ => exact h1.symm

theorem at1_eq (b : Row) (o : ℕ) (i : (⟨1, ![4096]⟩ : Shape).Idx) (h0 : (i 0).val = o) : at1 b o = b i := by
  have ho : o < 4096 := h0 ▸ (i 0).isLt
  unfold at1
  rw [dif_pos ho]
  refine congrArg b (funext fun a => Fin.ext ?_)
  match a with
  | ⟨0, _⟩ => exact h0.symm

/-- Chunk s of the contraction for entry (r, o): the 256 features 256·s … 256·s + 255. -/
def chunk (x W : Mat) (r o s : ℕ) : EReal := ∑ q : Fin 256, at2 x r (256 * s + q.val) * at2 W o (256 * s + q.val)

/-- The 16 chunks add up to the whole contraction. -/
theorem sum_chunks (x W : Mat) (r o : Fin 4096) :
    ∑ s ∈ Finset.range 16, chunk x W r.val o.val s = ∑ k : Fin 4096, x (ix2 r k) * W (ix2 o k) := by
  rw [← Cert.LibBlocks.sum_blocks (B := 16) (T := 256) (R := 4096) rfl (fun k => x (ix2 r k) * W (ix2 o k)),
    Finset.sum_range]
  refine Finset.sum_congr rfl fun s _ => Finset.sum_congr rfl fun q _ => ?_
  have hv : (Cert.LibBlocks.blockRow (B := 16) (T := 256) (R := 4096) rfl s q).val = 256 * s.val + q.val := by
    rw [Cert.LibBlocks.blockRow_val]; omega
  rw [at2_eq x r.val (256 * s.val + q.val) (ix2 r (Cert.LibBlocks.blockRow rfl s q)) rfl hv,
    at2_eq W o.val (256 * s.val + q.val) (ix2 o (Cert.LibBlocks.blockRow rfl s q)) rfl hv]

end Cert.Linear

end
-- ==== Proof.RefSpec.lean ====
/-
  The reference is the linear layer. Read one operation at a time, its result at (r, o) is the host's
  dot_general of x and W contracting the second axis of both, Σ_k x (r, k) · W (o, k), plus the bias broadcast
  first to a [1, 4096] row and then down the 4096 rows, which at (r, o) is b o.
-/
import proofs.«120342_j21251498180722_2_alg».proof.Proof.Gen.ReferenceIdeal.Read
import proofs.«120342_j21251498180722_2_alg».proof.Proof.Spec

noncomputable section

namespace Cert.Linear

open Cert.ReferenceIdeal Cert.ReferenceIdeal.Gen Cert.ReferenceIdeal.Read
open Idealize.ShloMosaic Idealize.ShloMosaic.ValueIdx
open scoped BigOperators

/-- The reference's last stage (the sum of the dot_general and the twice-broadcast bias), at the extended reals,
    is `linear` of the three arguments. -/
theorem reference_eq (x0 x1 : (⟨S4096x4096, .f32⟩ : BufTy).Contents (Elt Ideal)) (x2 : (⟨S4096, .f32⟩ : BufTy).Contents (Elt Ideal)) :
    val_main_v3 (F := Ideal) x0 x1 x2 = linear x0 x1 x2 := by
  funext i
  have el : ∀ k, lidx_main_v0 i k = ix2 (i 0) k := fun k => funext fun a => Fin.ext (by
    match a with | ⟨0, _⟩ => rfl | ⟨1, _⟩ => rfl)
  have er : ∀ k, ridx_main_v0 i k = ix2 (i 1) k := fun k => funext fun a => Fin.ext (by
    match a with | ⟨0, _⟩ => rfl | ⟨1, _⟩ => rfl)
  have eb : idx_main_v1 (idx_main_v2 i) = ix1 (i 1) := funext fun a => Fin.ext (by
    match a with | ⟨0, _⟩ => rfl)
  rw [val_main_v3_apply, val_main_v0_apply, val_main_v2_apply, val_main_v1_apply]
  simp only [el, er, eb]
  rfl

end Cert.Linear

end
-- ==== Proof.Payloads.lean ====
/-
  The kernel body's arithmetic at one entry of the [2048, 2048] output tile, on the extended reals.
  The accumulating step adds to the tile the product of a [2048, 256] block of x with a [2048, 256] block of W,
  both contracted along their second axis: at (p, q) that is acc (p, q) + Σ_k xa (p, k) · wa (q, k), the
  narrowing of the operands to bf16 being the identity on the extended reals and the matrix unit's own
  accumulator being zero. The first step starts from the zero tile; the closing step adds the [1, 2048] bias
  block broadcast down the rows, at (p, q) the bias block at (0, q).
-/
import proofs.«120342_j21251498180722_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.Linear

open Cert.KernelIdeal Cert.KernelIdeal.Gen
open Idealize.ShloMosaic Idealize.ShloMosaic.ValueIdx
open scoped BigOperators

/-- The block product's left operand is read at (p, k): the output's row and the contraction position. -/
theorem blockDot_lhs (j : S2048x2048.Idx) (c : dot_S2048x256_S2048x256_S2048x2048_1_1_0_0_n_n.contr.Idx) (k : Fin 256)
    (hk : (c ⟨0, by decide⟩).val = k.val) :
    dot_S2048x256_S2048x256_S2048x2048_1_1_0_0_n_n.lhsIdx j c = ix2 (j 0) k := funext fun a => Fin.ext (by
  match a with
  | ⟨0, _⟩ =>
    show (dot_S2048x256_S2048x256_S2048x2048_1_1_0_0_n_n.lhsIdx j c 0).val = (j 0).val
    unfold DotDims.lhsIdx
    rw [dif_neg (show ¬(0 : Fin S2048x256.rank) ∈ dot_S2048x256_S2048x256_S2048x2048_1_1_0_0_n_n.lhsBatch by decide),
      dif_pos (show (0 : Fin S2048x256.rank) ∈ dot_S2048x256_S2048x256_S2048x2048_1_1_0_0_n_n.lhsNonContracting by decide)]
    rfl
  | ⟨1, _⟩ => exact (dot_S2048x256_S2048x256_S2048x2048_1_1_0_0_n_n.lhsIdx_val_of_single rfl j c).trans hk)

/-- The right operand is read at (q, k): the output's column names a ROW of the W block. -/
theorem blockDot_rhs (j : S2048x2048.Idx) (c : dot_S2048x256_S2048x256_S2048x2048_1_1_0_0_n_n.contr.Idx) (k : Fin 256)
    (hk : (c ⟨0, by decide⟩).val = k.val) :
    dot_S2048x256_S2048x256_S2048x2048_1_1_0_0_n_n.rhsIdx j c = ix2 (j 1) k := funext fun a => Fin.ext (by
  match a with
  | ⟨0, _⟩ =>
    show (dot_S2048x256_S2048x256_S2048x2048_1_1_0_0_n_n.rhsIdx j c 0).val = (j 1).val
    unfold DotDims.rhsIdx
    rw [dif_neg (show ¬(0 : Fin S2048x256.rank) ∈ dot_S2048x256_S2048x256_S2048x2048_1_1_0_0_n_n.rhsBatch by decide),
      dif_pos (show (0 : Fin S2048x256.rank) ∈ dot_S2048x256_S2048x256_S2048x2048_1_1_0_0_n_n.rhsNonContracting by decide)]
    rfl
  | ⟨1, _⟩ => exact (dot_S2048x256_S2048x256_S2048x2048_1_1_0_0_n_n.rhsIdx_val_of_single rfl j c).trans hk)

/-- The block product into a zero accumulator at an entry: Σ_k xa (p, k) · wa (q, k). -/
theorem blockDot_apply (xa wa : FVec Ideal S2048x256 .bf16) (j : S2048x2048.Idx) :
    FloatOps.matmul dot_S2048x256_S2048x256_S2048x2048_1_1_0_0_n_n none xa wa (constant S2048x2048 .f32 0x00000000#32) j
      = ∑ k : Fin 256, xa (ix2 (j 0) k) * wa (ix2 (j 1) k) := by
  rw [Ideal.matmul_constant_zero_apply,
    ← Equiv.sum_comp (contrEquiv1 dot_S2048x256_S2048x256_S2048x2048_1_1_0_0_n_n 256 rfl rfl).symm]
  refine Finset.sum_congr rfl fun k _ => ?_
  have hk := contrEquiv1_symm_val dot_S2048x256_S2048x256_S2048x2048_1_1_0_0_n_n 256 rfl rfl k
  rw [blockDot_lhs j _ k hk, blockDot_rhs j _ k hk]
  rfl

/-- The product of an x block and a W block at tile entry j: row j₀ of the first against row j₁ of the second. -/
def rowDot (xa wa : Vec Ideal S2048x256 .f32) (j : S2048x2048.Idx) : EReal :=
  ∑ k : Fin 256, xa (ix2 (j 0) k) * wa (ix2 (j 1) k)

/-- The zero tile the first point of a run starts from. -/
theorem zeroTile_apply (j : S2048x2048.Idx) : k0_pay1 (F := Ideal) j = 0 := by
  show Ideal.ofBits .f32 0x00000000#32 = 0
  exact Ideal.ofBits_zero_f32

/-- The accumulating step at an entry. -/
theorem accumulate_apply (xa wa : Vec Ideal S2048x256 .f32) (acc : Vec Ideal S2048x2048 .f32) (j : S2048x2048.Idx) :
    k0_pay2 (F := Ideal) xa wa acc j = acc j + rowDot xa wa j := by
  unfold k0_pay2
  show @FloatOps.addf Ideal _ .f32 (shapeCast S2048x2048 acc shapeCasts_S2048x2048_S2048x2048 j)
      (FloatOps.matmul (F := Ideal) dot_S2048x256_S2048x256_S2048x2048_1_1_0_0_n_n none (truncf .bf16 xa bitsLt_bf16_f32)
          (truncf .bf16 wa bitsLt_bf16_f32) (constant S2048x2048 .f32 0x00000000#32) j) = _
  rw [shapeCast_self, blockDot_apply]
  rfl

/-- The closing step at an entry: the bias block, a single row, is read at (0, q). -/
theorem addBias_apply (acc : Vec Ideal S2048x2048 .f32) (bias : Vec Ideal S1x2048 .f32) (j : S2048x2048.Idx) :
    k0_pay3 (F := Ideal) acc bias j = acc j + bias (ix2 ⟨0, Nat.one_pos⟩ (j 1)) := by
  unfold k0_pay3
  show @FloatOps.addf Ideal _ .f32 (shapeCast S2048x2048 acc shapeCasts_S2048x2048_S2048x2048 j)
      (broadcastTo S2048x2048 (shapeCast S1x2048 bias shapeCasts_S1x2048_S1x2048) broadcasts_S1x2048_S2048x2048 j) = _
  rw [shapeCast_self, shapeCast_self,
    broadcastTo_apply bias broadcasts_S1x2048_S2048x2048 j (ix2 ⟨0, Nat.one_pos⟩ (j 1)) (fun a => by
      match a with
      | ⟨0, _⟩ => show 0 = if (1 : Nat) = 1 then 0 else _; rw [if_pos rfl]
      | ⟨1, _⟩ => show (j 1).val = if (2048 : Nat) = 1 then 0 else (j 1).val; rw [if_neg (by decide)])]
  rfl

end Cert.Linear

end
-- ==== Proof.InputBlocks.lean ====
/-
  What the kernel's three input windows hold at a grid point. The 64 points run over (row tile u, column tile v,
  chunk s) in row-major order, t = 32·u + 16·v + s. At point t the x window holds rows 2048·u … and features
  256·s … of x; the W window holds rows 2048·v … and features 256·s … of W; the bias window holds entries
  2048·v … of the bias, which the host first re-lays as a [1, 4096] row. Each block entry is therefore an entry
  of the whole argument array at natural-number coordinates.
-/
import proofs.«120342_j21251498180722_2_alg».proof.Proof.Gen.KernelIdeal.Frame
import proofs.«120342_j21251498180722_2_alg».proof.Proof.Spec
import Idealize.ShloMosaic.Lib.Pipeline.Value
import Idealize.ShloMosaic.Lib.StableHlo.Run

noncomputable section

namespace Cert.Linear

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The block coordinates of the three input windows at point t, decided over the grid's 64 points. -/
theorem window_index : ∀ t : Fin cfg0.N,
    win0_0.index t (0 : Fin 2) = t.val / 32 ∧ win0_0.index t (1 : Fin 2) = t.val % 16
    ∧ win0_1.index t (0 : Fin 2) = t.val / 16 % 2 ∧ win0_1.index t (1 : Fin 2) = t.val % 16
    ∧ win0_2.index t (0 : Fin 2) = 0 ∧ win0_2.index t (1 : Fin 2) = t.val / 16 % 2 :=
  (by decide +kernel : ∀ t : Fin grid0.N, _)

/-- The x block at point t, entry (p, k): x at row 2048·(t / 32) + p, feature 256·(t % 16) + k. -/
theorem xBlock_apply (c : Dev nD) (t : Fin cfg0.N) (p : Fin 2048) (k : Fin 256) :
    (iblk m c 0 t : Vec Ideal S2048x256 .f32) (ix2 p k)
      = at2 (m ((c : Thread nD τ).loc main_arg0)) (2048 * (t.val / 32) + p.val) (256 * (t.val % 16) + k.val) := by
  obtain ⟨h0, h1, -⟩ := window_index t
  unfold iblk
  rw [View.read_apply]
  show V m c main_arg0 (((cfg0.win 0).blk t).view.emb (ix2 p k)) = _
  rw [V_main_arg0]
  symm
  refine at2_eq _ _ _ _ ?_ ?_
  · show win0_0.index t (0 : Fin 2) * 2048 + 1 * p.val = _
    rw [h0]; omega
  · show win0_0.index t (1 : Fin 2) * 256 + 1 * k.val = _
    rw [h1]; omega

/-- The W block at point t, entry (q, k): W at row 2048·(t / 16 % 2) + q, feature 256·(t % 16) + k. -/
theorem wBlock_apply (c : Dev nD) (t : Fin cfg0.N) (q : Fin 2048) (k : Fin 256) :
    (iblk m c 1 t : Vec Ideal S2048x256 .f32) (ix2 q k)
      = at2 (m ((c : Thread nD τ).loc main_arg1)) (2048 * (t.val / 16 % 2) + q.val) (256 * (t.val % 16) + k.val) := by
  obtain ⟨-, -, h0, h1, -⟩ := window_index t
  unfold iblk
  rw [View.read_apply]
  show V m c main_arg1 (((cfg0.win 1).blk t).view.emb (ix2 q k)) = _
  rw [V_main_arg1]
  symm
  refine at2_eq _ _ _ _ ?_ ?_
  · show win0_1.index t (0 : Fin 2) * 2048 + 1 * q.val = _
    rw [h0]; omega
  · show win0_1.index t (1 : Fin 2) * 256 + 1 * k.val = _
    rw [h1]; omega

/-- The bias window's array when the region is entered: the bias re-laid as one row. -/
theorem biasRow_eq (c : Dev nD) :
    (V m c main_v0 : S1x4096.Idx → EReal)
      = shapeCast S1x4096 (m ((c : Thread nD τ).loc main_arg2)) shapeCasts_S4096_S1x4096 := by
  dsimp only [V, hostOps0]
  after_results
  rfl

/-- The bias block at point t, entry (0, q): the bias at 2048·(t / 16 % 2) + q. -/
theorem biasBlock_apply (c : Dev nD) (t : Fin cfg0.N) (q : Fin 2048) :
    (iblk m c 2 t : Vec Ideal S1x2048 .f32) (ix2 ⟨0, Nat.one_pos⟩ q)
      = at1 (m ((c : Thread nD τ).loc main_arg2)) (2048 * (t.val / 16 % 2) + q.val) := by
  obtain ⟨-, -, -, -, h0, h1⟩ := window_index t
  have hq := q.isLt
  unfold iblk
  rw [View.read_apply]
  show V m c main_v0 (((cfg0.win 2).blk t).view.emb (ix2 ⟨0, Nat.one_pos⟩ q)) = _
  have e0 : ((((cfg0.win 2).blk t).view.emb (ix2 ⟨0, Nat.one_pos⟩ q)) 0).val = win0_2.index t (0 : Fin 2) * 1 + 1 * 0 := rfl
  have e1 : ((((cfg0.win 2).blk t).view.emb (ix2 ⟨0, Nat.one_pos⟩ q)) 1).val = win0_2.index t (1 : Fin 2) * 2048 + 1 * q.val := rfl
  rw [biasRow_eq]
  refine (shapeCast_apply (s := S4096) (t := S1x4096) (m ((c : Thread nD τ).loc main_arg2)) shapeCasts_S4096_S1x4096 _
      (ix1 ⟨2048 * (t.val / 16 % 2) + q.val, by omega⟩) ?_).trans ?_
  · rw [Shape.rowMajor_val_one, Shape.rowMajor_val_two, e0, e1, h0, h1]
    show 2048 * (t.val / 16 % 2) + q.val = (0 * 1 + 1 * 0) * 4096 + (t.val / 16 % 2 * 2048 + 1 * q.val)
    omega
  · symm
    exact at1_eq _ _ _ rfl

end Cert.Linear

end
-- ==== Proof.Fold.lean ====
/-
  The kernel's result array is the linear layer. Each [2048, 2048] output tile is built over a run of 16
  consecutive grid points: the first point starts from the zero tile and adds the product of its x and W
  blocks, each later point adds its own product to what the point before left, and the sixteenth also adds
  the bias. At tile entry (p, q) point n's product is chunk n % 16 of the contraction between one row of x and
  one row of W, so after the run the entry holds the sum of the 16 chunks plus the bias entry, and the 16
  chunks are the whole contraction. Only associativity and commutativity of + on the extended reals are used.
-/
import proofs.«120342_j21251498180722_2_alg».proof.Proof.Gen.KernelIdeal.Value
import proofs.«120342_j21251498180722_2_alg».proof.Proof.Payloads
import proofs.«120342_j21251498180722_2_alg».proof.Proof.InputBlocks

noncomputable section

namespace Cert.Linear

open Cert.KernelIdeal Cert.KernelIdeal.Gen Cert.KernelIdeal.Value
open Idealize.ShloMosaic Idealize.ShloMosaic.TcCoe Idealize.ShloMosaic.ValueIdx Idealize.SL.Sem
open scoped BigOperators

variable (m : (ℓ : Loc nD τ sig) → Buf (Elt Ideal) ℓ)

/-- What point n adds at tile entry y: chunk n % 16 of the contraction between row 2048·(n / 32) + y₀ of x and
    row 2048·(n / 16 % 2) + y₁ of W. -/
def addend (c : Dev nD) (n : ℕ) (y : S2048x2048.Idx) : EReal :=
  chunk (m ((c : Thread nD τ).loc main_arg0)) (m ((c : Thread nD τ).loc main_arg1))
    (2048 * (n / 32) + (y 0).val) (2048 * (n / 16 % 2) + (y 1).val) (n % 16)

/-- The product of point t's x and W blocks at entry y is that addend. -/
theorem dot_blocks (c : Dev nD) (t : Fin cfg0.N) (y : S2048x2048.Idx) :
    rowDot (iblk m c 0 t) (iblk m c 1 t) y = addend m c t.val y := by
  unfold rowDot addend chunk
  exact Finset.sum_congr rfl fun k _ => by rw [xBlock_apply m c t (y 0) k, wBlock_apply m c t (y 1) k]

/-- The first point of a run: zero plus its addend. -/
theorem reset_apply (c : Dev nD) (n : ℕ) (h : n < cfg0.N) (y : S2048x2048.Idx) :
    reset3 m c n h y = 0 + addend m c n y := by
  unfold reset3
  refine (accumulate_apply (iblk m c 0 ⟨n, h⟩) (iblk m c 1 ⟨n, h⟩) (k0_pay1 (F := Ideal)) y).trans ?_
  exact congrArg₂ (fun a b : EReal => a + b) (zeroTile_apply y) (dot_blocks m c ⟨n, h⟩ y)

/-- A middle point of a run: what the point before left, plus its addend. -/
theorem step_apply (c : Dev nD) (n : ℕ) (h : n < cfg0.N) (acc : Vec Ideal S2048x2048 .f32) (y : S2048x2048.Idx)
    (h0 : ¬n % 16 = 0) (h1 : ¬n % 16 = 15) :
    step3 m c n h acc y = acc y + addend m c n y := by
  unfold step3
  rw [if_pos ⟨h0, h1⟩]
  exact (accumulate_apply (iblk m c 0 ⟨n, h⟩) (iblk m c 1 ⟨n, h⟩) acc y).trans
    (congrArg (fun z : EReal => acc y + z) (dot_blocks m c ⟨n, h⟩ y))

/-- The last point of a run: the same, and then the bias entry of the tile's column. -/
theorem last_apply (c : Dev nD) (n : ℕ) (h : n < cfg0.N) (acc : Vec Ideal S2048x2048 .f32) (y : S2048x2048.Idx)
    (h0 : ¬n % 16 = 0) (h1 : n % 16 = 15) :
    step3 m c n h acc y
      = (acc y + addend m c n y) + at1 (m ((c : Thread nD τ).loc main_arg2)) (2048 * (n / 16 % 2) + (y 1).val) := by
  unfold step3
  rw [if_neg (fun hh => hh.2 h1), if_pos ⟨h0, h1⟩]
  refine (addBias_apply (k0_pay2 (iblk m c 0 ⟨n, h⟩) (iblk m c 1 ⟨n, h⟩) acc) (iblk m c 2 ⟨n, h⟩) y).trans ?_
  refine congrArg₂ (fun a b : EReal => a + b) ?_ (biasBlock_apply m c ⟨n, h⟩ (y 1))
  exact (accumulate_apply (iblk m c 0 ⟨n, h⟩) (iblk m c 1 ⟨n, h⟩) acc y).trans
    (congrArg (fun z : EReal => acc y + z) (dot_blocks m c ⟨n, h⟩ y))

/-- The whole run starting at point 16·r, read at tile entry y: the 16 addends and the bias entry. -/
theorem run_apply (c : Dev nD) (r : ℕ) (h : 16 * r + 15 < cfg0.N) (y : S2048x2048.Idx) :
    Pipeline.accAt (reset3 m c) (step3 m c) (16 * r) 15 h y
      = (∑ s ∈ Finset.range 16, addend m c (16 * r + s) y)
        + at1 (m ((c : Thread nD τ).loc main_arg2)) (2048 * ((16 * r + 15) / 16 % 2) + (y 1).val) := by
  have h14 : 16 * r + 14 < cfg0.N := by omega
  have hfold : Pipeline.accAt (reset3 m c) (step3 m c) (16 * r) 14 h14 y
      = 0 + ∑ s ∈ Finset.range 15, addend m c (16 * r + s) y :=
    Pipeline.accAt_add_apply (ι := S2048x2048.Idx) (β := EReal) (reset3 m c) (step3 m c) (fun _ => (0 : EReal)) (addend m c) (16 * r) 14
      (fun hb y => reset_apply m c (16 * r) hb y)
      (fun n hn acc y hlo hhi => step_apply m c n hn acc y (by omega) (by omega)) 14 le_rfl h14 y
  have hsum : (∑ s ∈ Finset.range 16, addend m c (16 * r + s) y)
      = (∑ s ∈ Finset.range 15, addend m c (16 * r + s) y) + addend m c (16 * r + 15) y :=
    Finset.sum_range_succ _ 15
  have hstep : Pipeline.accAt (reset3 m c) (step3 m c) (16 * r) 15 h
      = step3 m c (16 * r + 15) h (Pipeline.accAt (reset3 m c) (step3 m c) (16 * r) 14 h14) := rfl
  rw [hstep, last_apply m c (16 * r + 15) h _ y (by omega) (by omega), hfold, zero_add, hsum]

/-- The generated result function is the linear layer of the three arguments. -/
theorem result_eq (c : Dev nD) :
    Value.G3 m c = linear (m ((c : Thread nD τ).loc main_arg0)) (m ((c : Thread nD τ).loc main_arg1))
      (m ((c : Thread nD τ).loc main_arg2)) := by
  funext i
  have hi0 : (i 0).val < 4096 := (i 0).isLt
  have hi1 : (i 1).val < 4096 := (i 1).isLt
  have hN : cfg0.N = 64 := N_0
  have hrun : run3Of i = 2 * ((i 0).val / 2048) + (i 1).val / 2048 := by
    show 2 * ((i 0).val / 2048 - 0) + 1 * ((i 1).val / 2048 - 0) = _
    omega
  have hl0 : ((loc3Of i) 0).val = (i 0).val % 2048 := rfl
  have hl1 : ((loc3Of i) 1).val = (i 1).val % 2048 := rfl
  unfold Value.G3
  rw [dif_pos (by rw [hN, hrun]; omega), run_apply m c (run3Of i) _ (loc3Of i)]
  unfold linear
  rw [← sum_chunks _ _ (i 0) (i 1)]
  refine congrArg₂ (fun a b : EReal => a + b) (Finset.sum_congr rfl fun s hs => ?_) ?_
  · have hs' : s < 16 := Finset.mem_range.mp hs
    unfold addend
    rw [hl0, hl1, hrun,
      show 2048 * ((16 * (2 * ((i 0).val / 2048) + (i 1).val / 2048) + s) / 32) + (i 0).val % 2048 = (i 0).val by omega,
      show 2048 * ((16 * (2 * ((i 0).val / 2048) + (i 1).val / 2048) + s) / 16 % 2) + (i 1).val % 2048 = (i 1).val by omega,
      show (16 * (2 * ((i 0).val / 2048) + (i 1).val / 2048) + s) % 16 = s by omega]
  · rw [hl1, hrun]
    exact at1_eq _ _ _ (by
      show (i 1).val = 2048 * ((16 * (2 * ((i 0).val / 2048) + (i 1).val / 2048) + 15) / 16 % 2) + (i 1).val % 2048
      omega)

end Cert.Linear

end
-- ==== Proof.lean ====
/- The linear layer out = x · Wᵀ + b over f32[4096, 4096] operands and a [4096] bias, as a tiled kernel against one
   einsum plus a broadcast add. The kernel builds each [2048, 2048] output tile over 16 grid points: zero at the
   first, the product of a [2048, 256] block of x with a [2048, 256] block of W (contracting the feature axis of
   both, the operands narrowed to bf16) added at every point, the bias block added at the last. On the extended
   reals the narrowing is the identity and every product and sum is exact, so entry (r, o) of the kernel's result
   is the sum over the 16 feature chunks of Σ_k x (r, k) · W (o, k) plus b o, while the reference's is the one
   sum over all 4096 features plus b o. The two agree because a finite sum may be regrouped into consecutive
   chunks in any commutative monoid: no cancellation or distributivity is used, so the finiteness of the inputs
   is never needed. The kernel's result array as the fold of each tile's run and the reference's run are the
   generated modules; Spec, RefSpec, Payloads, InputBlocks and Fold read both as the function `Cert.Linear.linear`.
   The idealization ledger is empty, so the kernel's idealized form is its sanctioned idealization trivially. -/
import proofs.«120342_j21251498180722_2_alg».proof.Defs
import proofs.«120342_j21251498180722_2_alg».proof.Proof.Gen.Kernel.Frame
import proofs.«120342_j21251498180722_2_alg».proof.Proof.Gen.KernelIdeal.Value
import proofs.«120342_j21251498180722_2_alg».proof.Proof.Gen.Pre_finite_inputs
import proofs.«120342_j21251498180722_2_alg».proof.Proof.Gen.ReferenceIdeal.Run
import proofs.«120342_j21251498180722_2_alg».proof.Proof.Gen.ReferenceIdeal.Read
import proofs.«120342_j21251498180722_2_alg».proof.Proof.RefSpec
import proofs.«120342_j21251498180722_2_alg».proof.Proof.Fold
import Idealize.ShloMosaic.Adequacy
import Idealize.ShloMosaic.Init

noncomputable section

namespace Cert.Proof

open Idealize.ShloMosaic Idealize.SL.Sem

/-- The idealized kernel terminates without a fault and leaves its arguments as they were: its value run, weakened. -/
theorem frame_KernelIdeal : frame_KernelIdeal := fun m ρ _ =>
  (θ_run Cert.KernelIdeal.defs _ _).mono (fun _ h c => (h c).2) (Cert.KernelIdeal.Value.run (F := Ideal) m ρ)

/-- The same for the reference: its run, weakened. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on x, W and b both programs end with the same result array: each is the linear layer of
    the three arguments, entry by entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact ((Cert.ReferenceIdeal.Read.val_main_v3_eq _ _ _).trans (Cert.Linear.reference_eq _ _ _)).trans
    (Cert.Linear.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
